-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x800000 : Shape := ⟨2, ![2, 800000]⟩
abbrev S2x200000 : Shape := ⟨2, ![2, 200000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S100000x1 32) (main_arg1 : IVec S2x800000 32) (main_arg2 : IVec S2x200000 32) (main_arg3 : FVec F S10000x128 .f32) (main_arg4 : FVec F S128x128 .f32) (main_arg5 : FVec F S128 .f32) (main_arg6 : FVec F S128x64 .f32) (main_arg7 : FVec F S64 .f32) : IVec S_ 1 :=
  let main_v0 : FVec F S10000x128 .f32 := Host.absf main_arg3
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg7 main_v13 main_v16
-- ==== Kernel.lean ====
abbrev S100000x1 : Shape := ⟨2, ![100000, 1]⟩
abbrev S2x800000 : Shape := ⟨2, ![2, 800000]⟩
abbrev S2x200000 : Shape := ⟨2, ![2, 200000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S100000x128 : Shape := ⟨2, ![100000, 128]⟩
abbrev S5000x128 : Shape := ⟨2, ![5000, 128]⟩
abbrev S900000x128 : Shape := ⟨2, ![900000, 128]⟩
abbrev S1x128 : Shape := ⟨2, ![1, 128]⟩
abbrev S100000x64 : Shape := ⟨2, ![100000, 64]⟩
abbrev S5000x64 : Shape := ⟨2, ![5000, 64]⟩
abbrev S900000x64 : Shape := ⟨2, ![900000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S1x64 : Shape := ⟨2, ![1, 64]⟩
abbrev S10000x64 : Shape := ⟨2, ![10000, 64]⟩
abbrev S10000x1 : Shape := ⟨2, ![10000, 1]⟩
abbrev S10000 : Shape := ⟨1, ![10000]⟩

abbrev nBuf : Space → Nat
  | .hbm => 118
  | .vmem => 22
  | .smem => 0
  | _ => 0

abbrev bufTy : (tb : Table) → Fin (tcTables nBuf tb) → BufTy
  | .hbm, ⟨0, _⟩ => ⟨S100000x1, .i32⟩
  | .hbm, ⟨1, _⟩ => ⟨S2x800000, .i32⟩
  | .hbm, ⟨2, _⟩ => ⟨S2x200000, .i32⟩
  | .hbm, ⟨3, _⟩ => ⟨S10000x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S100000, .i32⟩
  | .hbm, ⟨13, _⟩ => ⟨S900000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S_, .i32⟩
  | .hbm, ⟨39, _⟩ => ⟨S900000, .i32⟩
  | .hbm, ⟨40, _⟩ => ⟨S900000, .i1⟩
  | .hbm, ⟨41, _⟩ => ⟨S_, .i32⟩
  | .hbm, ⟨42, _⟩ => ⟨S900000, .i32⟩
  | .hbm, ⟨43, _⟩ => ⟨S900000, .i32⟩
  | .hbm, ⟨44, _⟩ => ⟨S900000, .i32⟩
  | .hbm, ⟨45, _⟩ => ⟨S900000x1, .i32⟩
  | .hbm, ⟨46, _⟩ => ⟨S900000, .f32⟩
  | .hbm, ⟨47, _⟩ => ⟨S900000, .f32⟩
  | .hbm, ⟨48, _⟩ => ⟨S900000x1, .f32⟩
  | .hbm, ⟨49, _⟩ => ⟨S100000, .i32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S100000, .i32⟩
  | .hbm, ⟨55, _⟩ => ⟨S100000, .i32⟩
  | .hbm, ⟨56, _⟩ => ⟨S100000, .i32⟩
  | .hbm, ⟨57, _⟩ => ⟨S100000x1, .i32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S900000, .i32⟩
  | .hbm, ⟨62, _⟩ => ⟨S900000, .i1⟩
  | .hbm, ⟨63, _⟩ => ⟨S_, .i32⟩
  | .hbm, ⟨64, _⟩ => ⟨S900000, .i32⟩
  | .hbm, ⟨65, _⟩ => ⟨S900000, .i32⟩
  | .hbm, ⟨66, _⟩ => ⟨S900000, .i32⟩
  | .hbm, ⟨67, _⟩ => ⟨S900000x1, .i32⟩
  | .hbm, ⟨68, _⟩ => ⟨S900000x128, .f32⟩
  | .hbm, ⟨69, _⟩ => ⟨S900000x128, .f32⟩
  | .hbm, ⟨70, _⟩ => ⟨S900000x128, .f32⟩
  | .hbm, ⟨71, _⟩ => ⟨S_, .f32⟩
  | .hbm, ⟨72, _⟩ => ⟨S100000x128, .f32⟩
  | .hbm, ⟨73, _⟩ => ⟨S900000x1, .i32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x64, .f32⟩
  | .hbm, ⟨78, _⟩ => ⟨S_, .i32⟩
  | .hbm, ⟨79, _⟩ => ⟨S900000, .i32⟩
  | .hbm, ⟨80, _⟩ => ⟨S900000, .i1⟩
  | .hbm, ⟨81, _⟩ => ⟨S_, .i32⟩
  | .hbm, ⟨82, _⟩ => ⟨S900000, .i32⟩
  | .hbm, ⟨83, _⟩ => ⟨S900000, .i32⟩
  | .hbm, ⟨84, _⟩ => ⟨S900000, .i32⟩
  | .hbm, ⟨85, _⟩ => ⟨S900000x1, .i32⟩
  | .hbm, ⟨86, _⟩ => ⟨S900000x64, .f32⟩
  | .hbm, ⟨87, _⟩ => ⟨S900000x64, .f32⟩
  | .hbm, ⟨88, _⟩ => ⟨S900000x64, .f32⟩
  | .hbm, ⟨89, _⟩ => ⟨S_, .f32⟩
  | .hbm, ⟨90, _⟩ => ⟨S100000x64, .f32⟩
  | .hbm, ⟨91, _⟩ => ⟨S900000x1, .i32⟩
  | .hbm, ⟨92, _⟩ => ⟨S100000x64, .f32⟩
  | .hbm, ⟨93, _⟩ => ⟨S1x200000, .i32⟩
  | .hbm, ⟨94, _⟩ => ⟨S200000, .i32⟩
  | .hbm, ⟨95, _⟩ => ⟨S1x200000, .i32⟩
  | .hbm, ⟨96, _⟩ => ⟨S200000, .i32⟩
  | .hbm, ⟨97, _⟩ => ⟨S_, .i32⟩
  | .hbm, ⟨98, _⟩ => ⟨S200000, .i32⟩
  | .hbm, ⟨99, _⟩ => ⟨S200000, .i1⟩
  | .hbm, ⟨100, _⟩ => ⟨S_, .i32⟩
  | .hbm, ⟨101, _⟩ => ⟨S200000, .i32⟩
  | .hbm, ⟨102, _⟩ => ⟨S200000, .i32⟩
  | .hbm, ⟨103, _⟩ => ⟨S200000, .i32⟩
  | .hbm, ⟨104, _⟩ => ⟨S200000x1, .i32⟩
  | .hbm, ⟨105, _⟩ => ⟨S200000x64, .f32⟩
  | .hbm, ⟨106, _⟩ => ⟨S_, .i32⟩
  | .hbm, ⟨107, _⟩ => ⟨S200000, .i32⟩
  | .hbm, ⟨108, _⟩ => ⟨S200000, .i1⟩
  | .hbm, ⟨109, _⟩ => ⟨S_, .i32⟩
  | .hbm, ⟨110, _⟩ => ⟨S200000, .i32⟩
  | .hbm, ⟨111, _⟩ => ⟨S200000, .i32⟩
  | .hbm, ⟨112, _⟩ => ⟨S200000, .i32⟩
  | .hbm, ⟨113, _⟩ => ⟨S200000x1, .i32⟩
  | .hbm, ⟨114, _⟩ => ⟨S200000x64, .f32⟩
  | .hbm, ⟨115, _⟩ => ⟨S1x64, .f32⟩
  | .hbm, ⟨116, _⟩ => ⟨S200000x1, .f32⟩
  | .hbm, ⟨117, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x1, .f32⟩
  | .local _ .vmem, ⟨21, _⟩ => ⟨S10000x1, .f32⟩
  | _, _ => ⟨S100000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_c_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  shapeCasts_S100000x1_S100000 : S100000x1.ShapeCasts S100000
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S10000x128_S100000x1_S100000x128_1_0_n_n_0_1_1128_wf : GatherDims.WF S10000x128 S100000x1 S100000x128 [1] [0] [] [0] [] 1 ![1, 128]
  dot_S5000x128_S128x128_S5000x128_1_0_0_1_n_n_wf : DotDims.WF S5000x128 S128x128 S5000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x64_S5000x64_1_0_0_1_n_n_wf : DotDims.WF S5000x128 S128x64 S5000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  gather_S100000x64_S200000x1_S200000x64_1_0_n_n_0_1_164_wf : GatherDims.WF S100000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S200000x64.size a
  hwx3_1 : ∀ i : grid3.Coords, EltTy.bits .f32 = 32 ∨ (Rect.block (s := S200000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x1.size a ≤ S200000x1.size a
  hwx3_3 : ∀ i : grid3.Coords, EltTy.bits .f32 = 32 ∨ (Rect.block (s := S200000x1) S10000x1.size (cc3_transform_3 i) (hinb3_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

abbrev win0_0 : Pipeline.Window sig grid0 :=
  Pipeline.Window.ofSpec (Memref.whole main_v38) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v77) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S10000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x1 : Shape := ⟨2, ![100000, 1]⟩
abbrev S2x800000 : Shape := ⟨2, ![2, 800000]⟩
abbrev S2x200000 : Shape := ⟨2, ![2, 200000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S100000 : Shape := ⟨1, ![100000]⟩
abbrev S_ : Shape := ⟨0, ![]⟩
abbrev S100000x128 : Shape := ⟨2, ![100000, 128]⟩
abbrev S900000 : Shape := ⟨1, ![900000]⟩
abbrev S900000x1 : Shape := ⟨2, ![900000, 1]⟩
abbrev S900000x128 : Shape := ⟨2, ![900000, 128]⟩
abbrev S1x128 : Shape := ⟨2, ![1, 128]⟩
abbrev S100000x64 : Shape := ⟨2, ![100000, 64]⟩
abbrev S900000x64 : Shape := ⟨2, ![900000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 162
  | .vmem => 0
  | .smem => 0
  | _ => 0

abbrev hbmTy0_0 (i : Nat) : BufTy := match i % 128 with
  | 0 => ⟨S100000x1, .i32⟩
  | 1 => ⟨S2x800000, .i32⟩
  | 2 => ⟨S2x200000, .i32⟩
  | 3 => ⟨S10000x128, .f32⟩
  | 4 => ⟨S128x128, .f32⟩
  | 5 => ⟨S128, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x128, .f32⟩
  | 22 => ⟨S100000x128, .f32⟩
  | 23 => ⟨S100000, .i32⟩
  | 24 => ⟨S900000, .i32⟩
  | 25 => ⟨S900000, .i32⟩
  | 26 => ⟨S_, .f32⟩
  | 27 => ⟨S900000, .f32⟩
  | 28 => ⟨S_, .f32⟩
  | 29 => ⟨S100000, .f32⟩
  | 30 => ⟨S900000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S900000, .i32⟩
  | 42 => ⟨S900000, .i1⟩
  | 43 => ⟨S_, .i32⟩
  | 44 => ⟨S900000, .i32⟩
  | 45 => ⟨S900000, .i32⟩
  | 46 => ⟨S900000, .i32⟩
  | 47 => ⟨S900000x1, .i32⟩
  | 48 => ⟨S900000, .f32⟩
  | 49 => ⟨S_, .i32⟩
  | 50 => ⟨S900000, .i32⟩
  | 51 => ⟨S900000, .i1⟩
  | 52 => ⟨S_, .i32⟩
  | 53 => ⟨S900000, .i32⟩
  | 54 => ⟨S900000, .i32⟩
  | 55 => ⟨S900000, .i32⟩
  | 56 => ⟨S900000x1, .i32⟩
  | 57 => ⟨S900000, .f32⟩
  | 58 => ⟨S900000, .f32⟩
  | 59 => ⟨S_, .i32⟩
  | 60 => ⟨S900000, .i32⟩
  | 61 => ⟨S900000, .i1⟩
  | 62 => ⟨S_, .i32⟩
  | 63 => ⟨S900000, .i32⟩
  | 64 => ⟨S900000, .i32⟩
  | 65 => ⟨S900000, .i32⟩
  | 66 => ⟨S900000x1, .i32⟩
  | 67 => ⟨S900000x128, .f32⟩
  | 68 => ⟨S900000x1, .f32⟩
  | 69 => ⟨S900000x128, .f32⟩
  | 70 => ⟨S900000x128, .f32⟩
  | 71 => ⟨S_, .f32⟩
  | 72 => ⟨S100000x128, .f32⟩
  | 73 => ⟨S900000x1, .i32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x64, .f32⟩
  | 82 => ⟨S100000, .i32⟩
  | 83 => ⟨S900000, .i32⟩
  | 84 => ⟨S900000, .i32⟩
  | 85 => ⟨S_, .f32⟩
  | 86 => ⟨S900000, .f32⟩
  | 87 => ⟨S_, .f32⟩
  | 88 => ⟨S100000, .f32⟩
  | 89 => ⟨S900000x1, .i32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S900000, .i32⟩
  | 101 => ⟨S900000, .i1⟩
  | 102 => ⟨S_, .i32⟩
  | 103 => ⟨S900000, .i32⟩
  | 104 => ⟨S900000, .i32⟩
  | 105 => ⟨S900000, .i32⟩
  | 106 => ⟨S900000x1, .i32⟩
  | 107 => ⟨S900000, .f32⟩
  | 108 => ⟨S_, .i32⟩
  | 109 => ⟨S900000, .i32⟩
  | 110 => ⟨S900000, .i1⟩
  | 111 => ⟨S_, .i32⟩
  | 112 => ⟨S900000, .i32⟩
  | 113 => ⟨S900000, .i32⟩
  | 114 => ⟨S900000, .i32⟩
  | 115 => ⟨S900000x1, .i32⟩
  | 116 => ⟨S900000, .f32⟩
  | 117 => ⟨S900000, .f32⟩
  | 118 => ⟨S_, .i32⟩
  | 119 => ⟨S900000, .i32⟩
  | 120 => ⟨S900000, .i1⟩
  | 121 => ⟨S_, .i32⟩
  | 122 => ⟨S900000, .i32⟩
  | 123 => ⟨S900000, .i32⟩
  | 124 => ⟨S900000, .i32⟩
  | 125 => ⟨S900000x1, .i32⟩
  | 126 => ⟨S900000x64, .f32⟩
  | 127 => ⟨S900000x1, .f32⟩
  | _ => ⟨S100000x1, .i32⟩

abbrev hbmTy0_1 (i : Nat) : BufTy := match i % 128 with
  | 0 => ⟨S900000x64, .f32⟩
  | 1 => ⟨S900000x64, .f32⟩
  | 2 => ⟨S_, .f32⟩
  | 3 => ⟨S100000x64, .f32⟩
  | 4 => ⟨S900000x1, .i32⟩
  | 5 => ⟨S100000x64, .f32⟩
  | 6 => ⟨S1x64, .f32⟩
  | 7 => ⟨S100000x64, .f32⟩
  | 8 => ⟨S100000x64, .f32⟩
  | 9 => ⟨S1x200000, .i32⟩
  | 10 => ⟨S200000, .i32⟩
  | 11 => ⟨S_, .i32⟩
  | 12 => ⟨S200000, .i32⟩
  | 13 => ⟨S200000, .i1⟩
  | 14 => ⟨S_, .i32⟩
  | 15 => ⟨S200000, .i32⟩
  | 16 => ⟨S200000, .i32⟩
  | 17 => ⟨S200000, .i32⟩
  | 18 => ⟨S200000x1, .i32⟩
  | 19 => ⟨S200000x64, .f32⟩
  | 20 => ⟨S1x200000, .i32⟩
  | 21 => ⟨S200000, .i32⟩
  | 22 => ⟨S_, .i32⟩
  | 23 => ⟨S200000, .i32⟩
  | 24 => ⟨S200000, .i1⟩
  | 25 => ⟨S_, .i32⟩
  | 26 => ⟨S200000, .i32⟩
  | 27 => ⟨S200000, .i32⟩
  | 28 => ⟨S200000, .i32⟩
  | 29 => ⟨S200000x1, .i32⟩
  | 30 => ⟨S200000x64, .f32⟩
  | 31 => ⟨S200000x64, .f32⟩
  | 32 => ⟨S_, .f32⟩
  | 33 => ⟨S200000, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_cst : Ref sig .tc := ⟨.hbm, 78, rfl⟩
abbrev main_call1_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_call2_v0 : Ref sig .tc := ⟨.hbm, 96, rfl⟩
abbrev main_call2_v1 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_c_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_19 : Ref sig .tc := ⟨.hbm, 118, rfl⟩
abbrev main_v83 : Ref sig .tc := ⟨.hbm, 119, rfl⟩
abbrev main_v84 : Ref sig .tc := ⟨.hbm, 120, rfl⟩
abbrev main_c_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_c_23 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_24 : Ref sig .tc := ⟨.hbm, 150, rfl⟩
abbrev main_v110 : Ref sig .tc := ⟨.hbm, 151, rfl⟩
abbrev main_v111 : Ref sig .tc := ⟨.hbm, 152, rfl⟩
abbrev main_c_25 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_26 : Ref sig .tc := ⟨.hbm, 160, rfl⟩
abbrev main_v118 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  concatenates_S800000_S100000_S900000_d0 : Shape.Concatenates [S800000, S100000] S900000 0
  bcast_S_S900000 : S_.BroadcastsInDim S900000 (![] : Fin 0 → Fin S900000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  gather_S10000x128_S100000x1_S100000x128_1_0_n_n_0_1_1128_wf : GatherDims.WF S10000x128 S100000x1 S100000x128 [1] [0] [] [0] [] 1 ![1, 128]
  dot_S100000x128_S128x128_S100000x128_1_0_0_1_n_n_wf : DotDims.WF S100000x128 S128x128 S100000x128 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  gather_S100000x64_S200000x1_S200000x64_1_0_n_n_0_1_164_wf : GatherDims.WF S100000x64 S200000x1 S200000x64 [1] [0] [] [0] [] 1 ![1, 64]

variable [Facts₀]

def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.KernelRun.lean ====
/-
  The idealized kernel's run with its result named.

  @main is ten segments: stretches of host operations around four pipelined kernel regions. The buffer contents
  at each boundary form a fold from the launch memory: a stretch of host operations applies its operations in
  order, a region replaces its arrays by what its write-backs leave and keeps every other buffer. The last
  valuation of the fold is `W10`. Every weakly fair execution terminates with EVERY unscoped buffer at `W10`; here
  the result buffer is kept in the post beside the argument arrays, which the fold reads back to the launch memory.
-/
import proofs.«154261_j33380485824613_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last valuation
    of the fold and the argument arrays as launched. -/
theorem run_out : θ_run defs (onTc (τ := τ) (main (F := F))) ⟨m, fun _ => 0, ρ⟩ (fun r => ∀ c : Dev nD,
      r.2.mem ((c.tc : Thread nD τ).loc main_v87) = W10 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v87 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Out

end
-- ==== Proof.FoldEntry.lean ====
/-
  The buffers the first kernel region and the later host stretches read, at the first region's entry, as the reference's
  stages of the launch arguments.

  The three stretches of host operations before the first region compute: the edge lists with one self loop per node
  appended; the in-degree of every node as a scatter of ones; deg^(-1/2) where the degree is positive and 0 elsewhere (the
  outlined `where`); that normaliser gathered at the sources and at the destinations and multiplied, as a column; and the
  embedding rows of the nodes. The reference applies the same operations to the same argument, so each buffer is the
  reference's stage. The stretches are read one at a time, each from the previous boundary's contents taken as given; the
  outlined call's operations carry a transport along their buffers' types, which is the identity.
-/
import proofs.«154261_j33380485824613_1_alg».proof.Proof.KernelRun
import proofs.«154261_j33380485824613_1_alg».proof.Proof.RefReadP

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Idealize.ShloMosaic.StableHlo

variable (m : (ℓ : Loc nD τ sig) → Buf (Elt Ideal) ℓ) (ρ : Dev nD → PrngReg) (c : Dev nD)

/-! ## After the first stretch -/

set_option maxHeartbeats 4000000 in
/-- The source list with the self loops appended. -/
theorem src_at1 : W1 m ρ c (Proc.devRef .tc main_v5) = Cert.ReferenceIdeal.ReadP.val_main_v14 (F := Ideal) (m ((c : Thread nD τ).loc main_arg1)) := by
  dsimp only [W1, hostOps0]
  after_results
  rfl

set_option maxHeartbeats 4000000 in
/-- The destination list with the self loops appended. -/
theorem dst_at1 : W1 m ρ c (Proc.devRef .tc main_v6) = Cert.ReferenceIdeal.ReadP.val_main_v15 (F := Ideal) (m ((c : Thread nD τ).loc main_arg1)) := by
  dsimp only [W1, hostOps0]
  after_results
  rfl

set_option maxHeartbeats 4000000 in
/-- Where the in-degree is positive. -/
theorem pos_at1 : W1 m ρ c (Proc.devRef .tc main_v12) = Cert.ReferenceIdeal.ReadP.val_main_v21 (F := Ideal) (m ((c : Thread nD τ).loc main_arg1)) := by
  dsimp only [W1, hostOps0]
  after_results
  rfl

set_option maxHeartbeats 4000000 in
/-- The in-degree to the power -1/2. -/
theorem rsqrt_at1 : W1 m ρ c (Proc.devRef .tc main_v13) = Cert.ReferenceIdeal.ReadP.val_main_v22 (F := Ideal) (m ((c : Thread nD τ).loc main_arg1)) := by
  dsimp only [W1, hostOps0]
  after_results
  rfl

set_option maxHeartbeats 4000000 in
/-- The zero the normaliser takes where the degree is not positive. -/
theorem fill_at1 : W1 m ρ c (Proc.devRef .tc main_cst_2) = Cert.ReferenceIdeal.ReadP.val_main_cst_3 (F := Ideal) := by
  dsimp only [W1, hostOps0]
  after_results
  rfl

/-! ## After the outlined `where` -/

/-- The outlined call's operations transport their operands and results along the buffers' types; every transport is the
    identity, so the call's result is the plain select. -/
theorem where_plain (A : (⟨S100000, .i1⟩ : BufTy).Contents (Elt Ideal)) (B : (⟨S100000, .f32⟩ : BufTy).Contents (Elt Ideal))
    (C : (⟨S_, .f32⟩ : BufTy).Contents (Elt Ideal)) :
    (TRef.of (sig := sig) (T := ⟨S100000, .f32⟩) main_v14).toBuf (Val := Elt Ideal)
      (select ((TRef.of (sig := sig) (T := ⟨S100000, .i1⟩) main_v12).ofBuf (Val := Elt Ideal) A)
        ((TRef.of (sig := sig) (T := ⟨S100000, .f32⟩) main_v13).ofBuf (Val := Elt Ideal) B)
        ((TRef.of (sig := sig) (T := ⟨S100000, .f32⟩) main_call0_v1).ofBuf (Val := Elt Ideal)
          ((TRef.of (sig := sig) (T := ⟨S100000, .f32⟩) main_call0_v1).toBuf (Val := Elt Ideal)
            (broadcastInDim S100000 ![] bcast_S_S100000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_2).ofBuf (Val := Elt Ideal) C))))))))
      = select A B (broadcastInDim S100000 ![] bcast_S_S100000 (id C)) := rfl

/-- The plain select of the reference's stages is the reference's normaliser stage. -/
theorem where_stage (x1 : (⟨Cert.ReferenceIdeal.S2x800000, .i32⟩ : BufTy).Contents (Elt Ideal)) :
    select (Cert.ReferenceIdeal.ReadP.val_main_v21 (F := Ideal) x1) (Cert.ReferenceIdeal.ReadP.val_main_v22 (F := Ideal) x1)
      (broadcastInDim S100000 ![] bcast_S_S100000 (id (Cert.ReferenceIdeal.ReadP.val_main_cst_3 (F := Ideal)))) = Cert.ReferenceIdeal.ReadP.val_main_v23 (F := Ideal) x1 := rfl

set_option maxHeartbeats 4000000 in
/-- The normaliser: deg^(-1/2) where the degree is positive, else 0. -/
theorem dinv_at2 : W2 m ρ c (Proc.devRef .tc main_v14) = Cert.ReferenceIdeal.ReadP.val_main_v23 (F := Ideal) (m ((c : Thread nD τ).loc main_arg1)) := by
  have h12 := pos_at1 m ρ c
  have h13 := rsqrt_at1 m ρ c
  have hc := fill_at1 m ρ c
  dsimp only [W2, hostOps0_1]
  revert h12 h13 hc
  generalize W1 m ρ c = V1
  intro h12 h13 hc
  after_results
  rw [h12, h13, hc]
  exact (where_plain _ _ _).trans (where_stage _)

set_option maxHeartbeats 4000000 in
/-- The source list passes the call unchanged. -/
theorem src_at2 : W2 m ρ c (Proc.devRef .tc main_v5) = Cert.ReferenceIdeal.ReadP.val_main_v14 (F := Ideal) (m ((c : Thread nD τ).loc main_arg1)) := by
  have h := src_at1 m ρ c
  dsimp only [W2, hostOps0_1]
  revert h
  generalize W1 m ρ c = V1
  intro h
  after_results
  exact h

set_option maxHeartbeats 4000000 in
/-- The destination list passes the call unchanged. -/
theorem dst_at2 : W2 m ρ c (Proc.devRef .tc main_v6) = Cert.ReferenceIdeal.ReadP.val_main_v15 (F := Ideal) (m ((c : Thread nD τ).loc main_arg1)) := by
  have h := dst_at1 m ρ c
  dsimp only [W2, hostOps0_1]
  revert h
  generalize W1 m ρ c = V1
  intro h
  after_results
  exact h

/-! ## At the first region's entry -/

set_option maxHeartbeats 4000000 in
/-- The source list with the self loops appended. -/
theorem src_at3 : W3 m ρ c (Proc.devRef .tc main_v5) = Cert.ReferenceIdeal.ReadP.val_main_v14 (F := Ideal) (m ((c : Thread nD τ).loc main_arg1)) := by
  have h := src_at2 m ρ c
  dsimp only [W3, hostOps0_2]
  revert h
  generalize W2 m ρ c = V2
  intro h
  after_results
  exact h

set_option maxHeartbeats 4000000 in
/-- The destination list with the self loops appended. -/
theorem dst_at3 : W3 m ρ c (Proc.devRef .tc main_v6) = Cert.ReferenceIdeal.ReadP.val_main_v15 (F := Ideal) (m ((c : Thread nD τ).loc main_arg1)) := by
  have h := dst_at2 m ρ c
  dsimp only [W3, hostOps0_2]
  revert h
  generalize W2 m ρ c = V2
  intro h
  after_results
  exact h

set_option maxHeartbeats 4000000 in
/-- The normalisation column: the normaliser at the source times the normaliser at the destination, per edge. -/
theorem norm_at3 : W3 m ρ c (Proc.devRef .tc main_v30) = Cert.ReferenceIdeal.ReadP.val_main_v46 (F := Ideal) (m ((c : Thread nD τ).loc main_arg1)) := by
  have h5 := src_at2 m ρ c
  have h6 := dst_at2 m ρ c
  have h14 := dinv_at2 m ρ c
  dsimp only [W3, hostOps0_2]
  revert h5 h6 h14
  generalize W2 m ρ c = V2
  intro h5 h6 h14
  after_results
  rw [h5, h6, h14]
  rfl

set_option maxHeartbeats 8000000 in
/-- The embedded node features. -/
theorem emb_at3 : W3 m ρ c (Proc.devRef .tc main_v38) = Cert.ReferenceIdeal.ReadP.val_main_v11 (F := Ideal) (m ((c : Thread nD τ).loc main_arg0)) (m ((c : Thread nD τ).loc main_arg3)) := by
  dsimp only [W3, W2, W1, hostOps0, hostOps0_1, hostOps0_2]
  after_results_simp
  rfl

set_option maxHeartbeats 8000000 in
/-- An argument array no operation writes is as launched. -/
theorem arg_at3 (b : Ref sig .tc) (hb : b = main_arg2 ∨ b = main_arg4 ∨ b = main_arg5 ∨ b = main_arg6 ∨ b = main_arg7) :
    W3 m ρ c (Proc.devRef .tc b) = m ((c : Thread nD τ).loc b) := by
  rcases hb with rfl | rfl | rfl | rfl | rfl
  all_goals dsimp only [W3, W2, W1, hostOps0, hostOps0_1, hostOps0_2]
  all_goals after_results_simp
  all_goals try rfl

end Cert.KernelIdeal.Fold

end
-- ==== Proof.LibPlainDot.lean ====
/-
  A plain matrix product [M, K] × [K, N] → [M, N] (no batch axis, the left operand's axis 1 contracted with the right
  operand's axis 0), read at an index over the extended reals: the entry (r, q) is the sum over k of lhs (r, k) · rhs (k, q),
  for a kernel's `tpu.matmul` into a zero accumulator and for the host's `dot_general` alike. Stated for any M, K, N and any
  operand formats, over the library's dimension numbers `DotDims.plain`; a printed record with the same fields is that by `rfl`.
-/
import Idealize.ShloMosaic.PureOps.Ideal.Laws
import Idealize.ShloMosaic.Lib.ValueIdx

namespace Idealize.ShloMosaic.LibPlainDot

open Idealize.ShloMosaic.ValueIdx

variable {φ₁ φ₂ : FTy}

/-- The left operand's index at output (r, q) and contraction coordinate k is (r, k). -/
theorem plain_lhsIdx (M K N : Nat) (r : Fin M) (q : Fin N) (k : Fin K) :
    (DotDims.plain M K N).lhsIdx (ix2 r q) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r q) _).trans hk

/-- The right operand's index at output (r, q) and contraction coordinate k is (k, q). -/
theorem plain_rhsIdx (M K N : Nat) (r : Fin M) (q : Fin N) (k : Fin K) :
    (DotDims.plain M K N).rhsIdx (ix2 r q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 r q) _).trans hk
  | ⟨1, _⟩ => rfl

/-- A kernel's matrix product into a zero accumulator, at (r, q): the sum over k of lhs (r, k) · rhs (k, q). -/
theorem matmul_plain_apply (M K N : Nat) (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's `dot_general` of the same dimension numbers, at (r, q): the same sum. -/
theorem dotGeneral_plain_apply (M K N : Nat) (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Idealize.ShloMosaic.LibPlainDot
-- ==== Proof.FirstProduct.lean ====
/-
  The first kernel region: x @ W1, twenty blocks of 5000 rows.

  At every grid point t the body loads rows 5000·t … 5000·t + 4999 of x (all 128 columns) and the whole of W1, and stores
  their matrix product; the change of float format before the product is the identity over the extended reals. So the
  point writes back block t of ONE function of the two arrays, `prod (r, q) = Σ k, x (r, k) · W1 (k, q)`, and since the
  twenty blocks tile the 100000 rows, the result array after the region is that function.
-/
import proofs.«154261_j33380485824613_1_alg».proof.Proof.Gen.KernelIdeal.Frame
import proofs.«154261_j33380485824613_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FirstProduct

open Cert.KernelIdeal Cert.KernelIdeal.Gen Idealize.ShloMosaic.LibPlainDot

variable (V : (c : Dev nD) → (b : Ref sig .tc) → Buf (Elt Ideal) ((c : Thread nD τ).loc b))

theorem zeros : (![0, 0] : Fin 2 → Nat) = fun _ => 0 := funext fun a => by fin_cases a <;> rfl

/-- The product of the whole arrays, entry by entry. -/
def prod (x : S100000x128.Idx → EReal) (w : S128x128.Idx → EReal) : S100000x128.Idx → EReal :=
  fun i => ∑ k : Fin 128, x (ix2 (⟨(i 0).val, (i 0).isLt⟩ : Fin 100000) k) * w (ix2 k (⟨(i 1).val, (i 1).isLt⟩ : Fin 128))

/-- The printed dimension numbers of the block product are the plain ones. -/
theorem dims_plain : dot_S5000x128_S128x128_S5000x128_1_0_0_1_n_n = DotDims.plain 5000 128 128 := rfl

/-- The body's stored value at (r, q): the sum over k of the loaded rows at (r, k) times the loaded weights at (k, q). -/
theorem payload_apply (x0 : Vec Ideal S5000x128 .f32) (x1 : Vec Ideal S128x128 .f32) (r : Fin 5000) (q : Fin 128) :
    k0_pay1 x0 x1 (ix2 r q) = ∑ k : Fin 128, x0 (ix2 r k) * x1 (ix2 k q) := by
  unfold k0_pay1
  rw [shapeCast_self, dims_plain]
  exact matmul_plain_apply 5000 128 128 none _ _ r q

/-- The index maps over the grid: the left operand and the result move together by one block of rows per point, the
    weights stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the region finds them. -/
theorem flushed_eq (c : Dev nD) (t : Fin cfg0.N) :
    (dat0 V c).flushed 2 t = ((cfg0.win 2).blk t).view.read (Elt Ideal) (prod (V c main_v38) (V c main_arg4)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x128) zeros]
  obtain ⟨e0, e1, e2, e3, e4, e5⟩ := index_facts t
  funext j
  obtain ⟨r, q, rfl⟩ : ∃ (r : Fin 5000) (q : Fin 128), j = ix2 r q := ⟨j 0, j 1, eq_ix2 j⟩
  show k0_pay1 (iblk0 V c 0 t) (iblk0 V c 1 t) (ix2 r q) = prod (V c main_v38) (V c main_arg4) (((cfg0.win 2).blk t).view.emb (ix2 r q))
  rw [payload_apply]
  unfold prod
  refine Finset.sum_congr rfl fun k _ => ?_
  have hx : iblk0 V c 0 t (ix2 r k) = V c main_v38 (ix2 (⟨((((cfg0.win 2).blk t).view.emb (ix2 r q)) 0).val, ((((cfg0.win 2).blk t).view.emb (ix2 r q)) 0).isLt⟩ : Fin 100000) k) := by
    show V c main_v38 (((cfg0.win 0).blk t).view.emb (ix2 r k)) = _
    refine congrArg (V c main_v38) (funext fun a => Fin.ext ?_)
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  have hw : iblk0 V c 1 t (ix2 k q) = V c main_arg4 (ix2 k (⟨((((cfg0.win 2).blk t).view.emb (ix2 r q)) 1).val, ((((cfg0.win 2).blk t).view.emb (ix2 r q)) 1).isLt⟩ : Fin 128)) := by
    show V c main_arg4 (((cfg0.win 1).blk t).view.emb (ix2 k q)) = _
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An index of the result array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v39).slice (win0_2.rect t)).set ↔ _
  rw [View.set_slice_whole, Rect.mem_set_unit]
  exact Iff.rfl

/-- Every index of the result array is in the block of the point its row falls in. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := index_facts t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region is the product of the arrays as the region finds them. -/
theorem array_eq (c : Dev nD) : (dat0 V c).arrAt 2 cfg0.N = prod (V c main_v38) (V c main_arg4) :=
  (dat0 V c).arrAt_eq_of_cover 2 (prod (V c main_v38) (V c main_arg4)) (fun t _ => flushed_eq V c t) covered

end Cert.KernelIdeal.FirstProduct

end
-- ==== Proof.SecondProduct.lean ====
/-
  The third kernel region: x2 @ W2, twenty blocks of 5000 rows, 128 → 64 columns.

  At every grid point t the body loads rows 5000·t … 5000·t + 4999 of the hidden features (all 128 columns) and the whole
  of W2, and stores their matrix product; the change of float format before the product is the identity over the extended
  reals. The point writes back block t of `prod (r, q) = Σ k, x2 (r, k) · W2 (k, q)`, and the twenty blocks tile the
  100000 rows, so the result array after the region is that function.
-/
import proofs.«154261_j33380485824613_1_alg».proof.Proof.Gen.KernelIdeal.Frame
import proofs.«154261_j33380485824613_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.SecondProduct

open Cert.KernelIdeal Cert.KernelIdeal.Gen Idealize.ShloMosaic.LibPlainDot

variable (V : (c : Dev nD) → (b : Ref sig .tc) → Buf (Elt Ideal) ((c : Thread nD τ).loc b))

theorem zeros : (![0, 0] : Fin 2 → Nat) = fun _ => 0 := funext fun a => by fin_cases a <;> rfl

/-- The product of the whole arrays, entry by entry. -/
def prod (x : S100000x128.Idx → EReal) (w : S128x64.Idx → EReal) : S100000x64.Idx → EReal :=
  fun i => ∑ k : Fin 128, x (ix2 (⟨(i 0).val, (i 0).isLt⟩ : Fin 100000) k) * w (ix2 k (⟨(i 1).val, (i 1).isLt⟩ : Fin 64))

/-- The printed dimension numbers of the block product are the plain ones. -/
theorem dims_plain : dot_S5000x128_S128x64_S5000x64_1_0_0_1_n_n = DotDims.plain 5000 128 64 := rfl

/-- The body's stored value at (r, q): the sum over k of the loaded rows at (r, k) times the loaded weights at (k, q). -/
theorem payload_apply (x0 : Vec Ideal S5000x128 .f32) (x1 : Vec Ideal S128x64 .f32) (r : Fin 5000) (q : Fin 64) :
    k2_pay1 x0 x1 (ix2 r q) = ∑ k : Fin 128, x0 (ix2 r k) * x1 (ix2 k q) := by
  unfold k2_pay1
  rw [shapeCast_self, dims_plain]
  exact matmul_plain_apply 5000 128 64 none _ _ r q

/-- The index maps over the grid: the left operand and the result move together by one block of rows per point, the
    weights stay. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays as the region finds them. -/
theorem flushed_eq (c : Dev nD) (t : Fin cfg2.N) :
    (dat2 V c).flushed 2 t = ((cfg2.win 2).blk t).view.read (Elt Ideal) (prod (V c main_v53) (V c main_arg6)) := by
  show (cfg2.win 2).cut (grid2.coords t) ((dat2 V c).after 2 t) = _
  rw [after2_2]
  unfold out2_2
  rw [View.canon_unit_zero zeros]
  simp only [View.ld_unit_zero (S := S5000x128) zeros, View.ld_unit_zero (S := S128x64) zeros]
  obtain ⟨e0, e1, e2, e3, e4, e5⟩ := index_facts t
  funext j
  obtain ⟨r, q, rfl⟩ : ∃ (r : Fin 5000) (q : Fin 64), j = ix2 r q := ⟨j 0, j 1, eq_ix2 j⟩
  show k2_pay1 (iblk2 V c 0 t) (iblk2 V c 1 t) (ix2 r q) = prod (V c main_v53) (V c main_arg6) (((cfg2.win 2).blk t).view.emb (ix2 r q))
  rw [payload_apply]
  unfold prod
  refine Finset.sum_congr rfl fun k _ => ?_
  have hx : iblk2 V c 0 t (ix2 r k) = V c main_v53 (ix2 (⟨((((cfg2.win 2).blk t).view.emb (ix2 r q)) 0).val, ((((cfg2.win 2).blk t).view.emb (ix2 r q)) 0).isLt⟩ : Fin 100000) k) := by
    show V c main_v53 (((cfg2.win 0).blk t).view.emb (ix2 r k)) = _
    refine congrArg (V c main_v53) (funext fun a => Fin.ext ?_)
    match a with
    | ⟨0, _⟩ => show win2_0.index t (0 : Fin 2) * 5000 + 1 * r.val = win2_2.index t (0 : Fin 2) * 5000 + 1 * r.val; omega
    | ⟨1, _⟩ => show win2_0.index t (1 : Fin 2) * 128 + 1 * k.val = k.val; omega
  have hw : iblk2 V c 1 t (ix2 k q) = V c main_arg6 (ix2 k (⟨((((cfg2.win 2).blk t).view.emb (ix2 r q)) 1).val, ((((cfg2.win 2).blk t).view.emb (ix2 r q)) 1).isLt⟩ : Fin 64)) := by
    show V c main_arg6 (((cfg2.win 1).blk t).view.emb (ix2 k q)) = _
    refine congrArg (V c main_arg6) (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [hx, hw]

/-- An index of the result array is in point t's block iff each coordinate is in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v54).slice (win2_2.rect t)).set ↔ _
  rw [View.set_slice_whole, Rect.mem_set_unit]
  exact Iff.rfl

/-- Every index of the result array is in the block of the point its row falls in. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, e2, e3, e4, e5⟩ := index_facts t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The result array after the region is the product of the arrays as the region finds them. -/
theorem array_eq (c : Dev nD) : (dat2 V c).arrAt 2 cfg2.N = prod (V c main_v53) (V c main_arg6) :=
  (dat2 V c).arrAt_eq_of_cover 2 (prod (V c main_v53) (V c main_arg6)) (fun t _ => flushed_eq V c t) covered

end Cert.KernelIdeal.SecondProduct

end
-- ==== Proof.BiasRelu.lean ====
/-
  The second kernel region: max(agg + b1, 0), twenty blocks of 5000 rows.

  At every grid point t the body loads rows 5000·t … 5000·t + 4999 of the aggregated features and the one row of the
  bias, adds the bias to every row and takes the maximum with zero, entry by entry. So the point writes back block t of
  `rect (r, q) = max (agg (r, q) + b (0, q)) 0`, and the twenty blocks tile the 100000 rows.
-/
import proofs.«154261_j33380485824613_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasRelu

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The rectified, biased array, entry by entry: the bias row is read at the entry's column. -/
def rect (a : S100000x128.Idx → EReal) (b : S1x128.Idx → EReal) : S100000x128.Idx → EReal :=
  fun i => max (a i + b (ix2 (0 : Fin 1) (⟨(i 1).val, (i 1).isLt⟩ : Fin 128))) (Ideal.ofBits .f32 0x00000000#32)

/-- The one bias row spread over 5000 rows, read at (r, q), is the row at (0, q). -/
theorem spread_apply (x : Vec Ideal S1x128 .f32) (r : Fin 5000) (q : Fin 128) :
    broadcastTo S5000x128 x broadcasts_S1x128_S5000x128 (ix2 r q) = x (ix2 (0 : Fin 1) q) :=
  broadcastTo_apply x broadcasts_S1x128_S5000x128 (ix2 r q) (ix2 (0 : Fin 1) q) (fun a => by
    match a with
    | ⟨0, _⟩ => rfl
    | ⟨1, _⟩ => rfl)

/-- The body's stored value at (r, q). -/
theorem payload_apply (x0 : Vec Ideal S5000x128 .f32) (x1 : Vec Ideal S1x128 .f32) (r : Fin 5000) (q : Fin 128) :
    k1_pay1 x0 x1 (ix2 r q) = max (x0 (ix2 r q) + x1 (ix2 (0 : Fin 1) q)) (Ideal.ofBits .f32 0x00000000#32) := by
  unfold k1_pay1
  rw [shapeCast_self, shapeCast_self, maximumf_apply, addf_apply, spread_apply]
  rfl

/-- The index maps over the grid: the features and the result move together by one block of rows per point, the bias
    row stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the rectified, biased array. -/
theorem flushed_eq (c : Dev nD) (t : Fin cfg1.N) :
    (dat1 V c).flushed 2 t = ((cfg1.win 2).blk t).view.read (Elt Ideal) (rect (V c main_v51) (V c main_v52)) := by
  show (cfg1.win 2).cut (grid1.coords t) ((dat1 V c).after 2 t) = _
  rw [after1_2]
  unfold out1_2
  rw [View.canon_unit_zero zeros]
  simp only [View.ld_unit_zero (S := S5000x128) zeros, View.ld_unit_zero (S := S1x128) zeros]
  obtain ⟨e0, e1, e2, e3, e4, e5⟩ := index_facts t
  funext j
  obtain ⟨r, q, rfl⟩ : ∃ (r : Fin 5000) (q : Fin 128), j = ix2 r q := ⟨j 0, j 1, eq_ix2 j⟩
  show k1_pay1 (iblk1 V c 0 t) (iblk1 V c 1 t) (ix2 r q) = rect (V c main_v51) (V c main_v52) (((cfg1.win 2).blk t).view.emb (ix2 r q))
  rw [payload_apply]
  unfold rect
  have ha : iblk1 V c 0 t (ix2 r q) = V c main_v51 (((cfg1.win 2).blk t).view.emb (ix2 r q)) := by
    show V c main_v51 (((cfg1.win 0).blk t).view.emb (ix2 r q)) = _
    refine congrArg (V c main_v51) (funext fun a => Fin.ext ?_)
    match a with
    | ⟨0, _⟩ => show win1_0.index t (0 : Fin 2) * 5000 + 1 * r.val = win1_2.index t (0 : Fin 2) * 5000 + 1 * r.val; omega
    | ⟨1, _⟩ => show win1_0.index t (1 : Fin 2) * 128 + 1 * q.val = win1_2.index t (1 : Fin 2) * 128 + 1 * q.val; omega
  have hb : iblk1 V c 1 t (ix2 (0 : Fin 1) q) = V c main_v52 (ix2 (0 : Fin 1) (⟨((((cfg1.win 2).blk t).view.emb (ix2 r q)) 1).val, ((((cfg1.win 2).blk t).view.emb (ix2 r q)) 1).isLt⟩ : Fin 128)) := by
    show V c main_v52 (((cfg1.win 1).blk t).view.emb (ix2 (0 : Fin 1) q)) = _
    refine congrArg (V c main_v52) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [ha, hb]

/-- An index of the result array is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v53).slice (win1_2.rect t)).set ↔ _
  rw [View.set_slice_whole, Rect.mem_set_unit]
  exact Iff.rfl

/-- Every index of the result array is in the block of the point its row falls in. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5⟩ := index_facts t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the region is the rectified, biased array. -/
theorem array_eq (c : Dev nD) : (dat1 V c).arrAt 2 cfg1.N = rect (V c main_v51) (V c main_v52) :=
  (dat1 V c).arrAt_eq_of_cover 2 (rect (V c main_v51) (V c main_v52)) (fun t _ => flushed_eq V c t) covered

end Cert.KernelIdeal.BiasRelu

end
-- ==== Proof.Decode.lean ====
/-
  The fourth kernel region: the link decoder, twenty blocks of 10000 rows.

  At every grid point t the body loads rows 10000·t … 10000·t + 9999 of the two gathered feature arrays z0 and z1 and the
  one row of the bias, adds the bias to every row of each, multiplies the two entry by entry and sums each row over its 64
  columns. So the point writes back block t of the one-column array
  `dots (r, 0) = Σ k, (z0 (r, k) + b (0, k)) · (z1 (r, k) + b (0, k))`, and the twenty blocks tile the 200000 rows.
-/
import proofs.«154261_j33380485824613_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Decode

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The rows' dot products with the bias added on both sides, as a one-column array. -/
def dots (z0 z1 : S200000x64.Idx → EReal) (b : S1x64.Idx → EReal) : S200000x1.Idx → EReal :=
  fun i => ∑ k : Fin 64, (z0 (ix2 (⟨(i 0).val, (i 0).isLt⟩ : Fin 200000) k) + b (ix2 (0 : Fin 1) k))
    * (z1 (ix2 (⟨(i 0).val, (i 0).isLt⟩ : Fin 200000) k) + b (ix2 (0 : Fin 1) k))

/-- The one bias row spread over 10000 rows, read at (r, k), is the row at (0, k). -/
theorem spread_apply (x : Vec Ideal S1x64 .f32) (r : Fin 10000) (k : Fin 64) :
    broadcastTo S10000x64 x broadcasts_S1x64_S10000x64 (ix2 r k) = x (ix2 (0 : Fin 1) k) :=
  broadcastTo_apply x broadcasts_S1x64_S10000x64 (ix2 r k) (ix2 (0 : Fin 1) k) (fun a => by
    match a with
    | ⟨0, _⟩ => rfl
    | ⟨1, _⟩ => rfl)

/-- The body's stored value at (r, 0): the sum over the 64 columns of the product of the two biased rows. -/
theorem payload_apply (v0 v6 : Vec Ideal S10000x64 .f32) (v2 v8 : Vec Ideal S1x64 .f32) (r : Fin 10000) :
    k3_pay1 v0 v2 v6 v8 (ix2 r (0 : Fin 1))
      = ∑ k : Fin 64, (v0 (ix2 r k) + v2 (ix2 (0 : Fin 1) k)) * (v6 (ix2 r k) + v8 (ix2 (0 : Fin 1) k)) := by
  unfold k3_pay1
  rw [shapeCast_self, shapeCast_self, shapeCast_self, shapeCast_self]
  refine (shapeCast_apply _ shapeCasts_S10000_S10000x1 (ix2 r (0 : Fin 1)) (ix1 r) ?_).trans ?_
  · rw [Shape.rowMajor_val_one, Shape.rowMajor_val_two]
    show r.val = r.val * 1 + 0
    omega
  refine (Ideal.multiReduction_add_single _ 0x00000000#32 reduces_S10000x64_S10000 _ _ (ix1 r)).trans ?_
  show ∑ k : Fin 64, _ = _
  refine Finset.sum_congr rfl fun k _ => ?_
  have hl : reduces_S10000x64_S10000.lift (ix1 r) k = ix2 r k :=
    funext fun a => Fin.ext (by match a with | ⟨0, _⟩ => rfl | ⟨1, _⟩ => rfl)
  rw [hl, mulf_apply, addf_apply, addf_apply, spread_apply, spread_apply]

/-- The index maps over the grid: the two feature arrays and the result move together by one block of rows per point, the
    bias row stays. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 2000000 in
/-- What point t writes back is block t of the rows' dot products. -/
theorem flushed_eq (c : Dev nD) (t : Fin cfg3.N) :
    (dat3 V c).flushed 3 t = ((cfg3.win 3).blk t).view.read (Elt Ideal) (dots (V c main_v77) (V c main_v84) (V c main_v85)) := by
  show (cfg3.win 3).cut (grid3.coords t) ((dat3 V c).after 3 t) = _
  rw [after3_3]
  unfold out3_3
  rw [View.canon_unit_zero zeros]
  simp only [View.ld_unit_zero (S := S10000x64) zeros, View.ld_unit_zero (S := S1x64) zeros]
  obtain ⟨e0, e1, e2, e3, e4, e5, e6, e7⟩ := index_facts t
  funext j
  obtain ⟨r, z, rfl⟩ : ∃ (r : Fin 10000) (z : Fin 1), j = ix2 r z := ⟨j 0, j 1, eq_ix2 j⟩
  obtain rfl : z = 0 := Subsingleton.elim _ _
  show k3_pay1 (iblk3 V c 0 t) (iblk3 V c 2 t) (iblk3 V c 1 t) (iblk3 V c 2 t) (ix2 r (0 : Fin 1))
    = dots (V c main_v77) (V c main_v84) (V c main_v85) (((cfg3.win 3).blk t).view.emb (ix2 r (0 : Fin 1)))
  rw [payload_apply]
  unfold dots
  refine Finset.sum_congr rfl fun k _ => ?_
  have h0 : iblk3 V c 0 t (ix2 r k) = V c main_v77 (ix2 (⟨((((cfg3.win 3).blk t).view.emb (ix2 r (0 : Fin 1))) 0).val, ((((cfg3.win 3).blk t).view.emb (ix2 r (0 : Fin 1))) 0).isLt⟩ : Fin 200000) k) := by
    show V c main_v77 (((cfg3.win 0).blk t).view.emb (ix2 r k)) = _
    refine congrArg (V c main_v77) (funext fun a => Fin.ext ?_)
    match a with
    | ⟨0, _⟩ => show win3_0.index t (0 : Fin 2) * 10000 + 1 * r.val = win3_3.index t (0 : Fin 2) * 10000 + 1 * r.val; omega
    | ⟨1, _⟩ => show win3_0.index t (1 : Fin 2) * 64 + 1 * k.val = k.val; omega
  have h1 : iblk3 V c 1 t (ix2 r k) = V c main_v84 (ix2 (⟨((((cfg3.win 3).blk t).view.emb (ix2 r (0 : Fin 1))) 0).val, ((((cfg3.win 3).blk t).view.emb (ix2 r (0 : Fin 1))) 0).isLt⟩ : Fin 200000) k) := by
    show V c main_v84 (((cfg3.win 1).blk t).view.emb (ix2 r k)) = _
    refine congrArg (V c main_v84) (funext fun a => Fin.ext ?_)
    match a with
    | ⟨0, _⟩ => show win3_1.index t (0 : Fin 2) * 10000 + 1 * r.val = win3_3.index t (0 : Fin 2) * 10000 + 1 * r.val; omega
    | ⟨1, _⟩ => show win3_1.index t (1 : Fin 2) * 64 + 1 * k.val = k.val; omega
  have he : ((cfg3.win 2).blk t).view.emb (ix2 (0 : Fin 1) k) = (ix2 (0 : Fin 1) k : S1x64.Idx) := by
    funext a
    apply Fin.ext
    match a with
    | ⟨0, _⟩ => show win3_2.index t (0 : Fin 2) * 1 + 1 * 0 = 0; omega
    | ⟨1, _⟩ => show win3_2.index t (1 : Fin 2) * 64 + 1 * k.val = k.val; omega
  have hb : iblk3 V c 2 t (ix2 (0 : Fin 1) k) = V c main_v85 (ix2 (0 : Fin 1) k) := by
    show V c main_v85 (((cfg3.win 2).blk t).view.emb (ix2 (0 : Fin 1) k)) = V c main_v85 (ix2 (0 : Fin 1) k)
    rw [he]
  rw [h0, h1, hb]

/-- An index of the result array is in point t's block iff each coordinate is in the block's range on its axis. -/
theorem mem_block (t : Fin cfg3.N) (i : S200000x1.Idx) :
    i ∈ ((cfg3.win 3).blk t).view.set ↔ ∀ a : Fin 2, win3_3.index t a * S10000x1.size a ≤ (i a).val ∧ (i a).val < win3_3.index t a * S10000x1.size a + S10000x1.size a := by
  show i ∈ ((View.whole main_v86).slice (win3_3.rect t)).set ↔ _
  rw [View.set_slice_whole, Rect.mem_set_unit]
  exact Iff.rfl

/-- Every index of the result array is in the block of the point its row falls in. -/
theorem covered (i : S200000x1.Idx) : ∃ t : Fin cfg3.N, (cfg3.win 3).flush t = true ∧ i ∈ ((cfg3.win 3).blk t).view.set := by
  have hi0 : (i 0).val < 200000 := (i 0).isLt
  have hi1 : (i 1).val < 1 := (i 1).isLt
  have hN : cfg3.N = 20 := N_3
  let t : Fin cfg3.N := ⟨(i 0).val / 10000, by rw [hN]; omega⟩
  obtain ⟨e0, e1, e2, e3, e4, e5, e6, e7⟩ := index_facts t
  have ht : t.val = (i 0).val / 10000 := rfl
  refine ⟨t, flush3_3 t, ?_⟩
  rw [mem_block]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 1 ≤ (i 1).val ∧ (i 1).val < win3_3.index t (1 : Fin 2) * 1 + 1; omega

/-- The result array after the region is the rows' dot products. -/
theorem array_eq (c : Dev nD) : (dat3 V c).arrAt 3 cfg3.N = dots (V c main_v77) (V c main_v84) (V c main_v85) :=
  (dat3 V c).arrAt_eq_of_cover 3 (dots (V c main_v77) (V c main_v84) (V c main_v85)) (fun t _ => flushed_eq V c t) covered

end Cert.KernelIdeal.Decode

end
-- ==== Proof.LibGatherRows.lean ====
/-
  jnp's row indexing `x[idx]` of a [N, C] array by R row numbers lowers to a gather whose slices are whole rows: axis
  0 of the operand is collapsed and started at the row number, axis 1 is an offset axis taken whole. Read at result
  index (b, q) it is the operand at (the row number of b, read signed and clamped into 0 … N − 1; q). Stated for any
  N, R, C, with the dimension numbers as a program prints them.
-/
import Idealize.ShloMosaic.PureOps.ShapeOps
import Idealize.ShloMosaic.Lib.ValueIdx

namespace Idealize.ShloMosaic.LibGatherRows

open Idealize.ShloMosaic.ValueIdx

variable {α : Type}

/-- The dimension numbers of a whole-row gather: [N, C] operand, [R, 1] row numbers, [R, C] result. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row the gather reads for result row b: the row number read signed, clamped into 0 … N − 1. -/
def rowOf {N R w : Nat} (hN : 0 < N) (idx : IVec ⟨2, ![R, 1]⟩ w) (b : Fin R) : Fin N :=
  ⟨min (idx (ix2 b (0 : Fin 1))).toInt.toNat (N - 1), by omega⟩

/-- THE WHOLE-ROW GATHER AT AN INDEX. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (b : Fin R) (q : Fin C) :
    Host.gather (rowsDims N R C wf) x idx (ix2 b q) = x (ix2 (rowOf hN idx b) q) := by
  unfold Host.gather
  congr 1
  funext a
  apply Fin.ext
  fin_cases a <;>
    simp [GatherDims.operandIdx, GatherDims.start, GatherDims.offCoord, GatherDims.batchCoord, rowsDims,
      GatherDims.sKept, Shape.kept, rowOf]
  · refine congrArg (fun z => min (idx z).toInt.toNat (N - 1)) ?_
    funext a
    apply Fin.ext
    fin_cases a <;> rfl
  · first
      | rfl
      | exact congrArg (fun a => ((ix2 b q) a : ℕ)) (by decide)

end Idealize.ShloMosaic.LibGatherRows
-- ==== Proof.StageLaws.lean ====
/-
  The four places where the kernel and the reference are written differently, as laws between whole arrays over the
  extended reals.

  * A blocked matrix product is the whole `dot_general`: entry (r, q) of either is Σ k, x (r, k) · w (k, q).
  * max(agg + b1, 0) with the bias reshaped to one row is the reference's add of the bias spread over all rows followed
    by the maximum with a zero array.
  * The decoder. The kernel gathers rows of the aggregate and THEN adds the bias to the gathered rows; the reference adds
    the bias to every row and THEN gathers. A row gather reads whole rows of its operand at a row number that depends on the
    index array only, so it commutes with adding a per-column bias: (agg + b)[row, k] = agg[row, k] + b[k]. After that both
    sides are the same sum over the 64 columns; the reference's sum starts from the zero word, which is 0.
-/
import proofs.«154261_j33380485824613_1_alg».proof.Proof.FirstProduct
import proofs.«154261_j33380485824613_1_alg».proof.Proof.SecondProduct
import proofs.«154261_j33380485824613_1_alg».proof.Proof.BiasRelu
import proofs.«154261_j33380485824613_1_alg».proof.Proof.Decode
import proofs.«154261_j33380485824613_1_alg».proof.Proof.RefReadP
import proofs.«154261_j33380485824613_1_alg».proof.Proof.LibPlainDot
import proofs.«154261_j33380485824613_1_alg».proof.Proof.LibGatherRows

set_option maxRecDepth 16384

noncomputable section

open Idealize.ShloMosaic Idealize.ShloMosaic.TcCoe Idealize.SL.Sem Idealize.ShloMosaic.ValueIdx
open Idealize.ShloMosaic.Pipeline (Dat)

namespace Cert.StageLaws

open Cert.ReferenceIdeal Cert.ReferenceIdeal.Gen Cert.ReferenceIdeal.ReadP Idealize.ShloMosaic.LibPlainDot Idealize.ShloMosaic.LibGatherRows

/-! ## The two matrix products -/

theorem dims1_plain : dot_S100000x128_S128x128_S100000x128_1_0_0_1_n_n = DotDims.plain 100000 128 128 := rfl
theorem dims2_plain : dot_S100000x128_S128x64_S100000x64_1_0_0_1_n_n = DotDims.plain 100000 128 64 := rfl

/-- The first blocked product is the reference's `dot_general` of the whole arrays. -/
theorem first_product (X : FVec Ideal S100000x128 .f32) (W : FVec Ideal S128x128 .f32) :
    Cert.KernelIdeal.FirstProduct.prod X W
      = Host.dotGeneral (F := Ideal) dot_S100000x128_S128x128_S100000x128_1_0_0_1_n_n none X W := by
  funext i
  obtain ⟨r, q, rfl⟩ : ∃ (r : Fin 100000) (q : Fin 128), i = ix2 r q := ⟨i 0, i 1, eq_ix2 i⟩
  rw [dims1_plain]
  simp only [Host.dotGeneral]
  exact (dotGeneral_plain_apply 100000 128 128 none _ X W r q).symm

/-- The second blocked product is the reference's `dot_general` of the whole arrays. -/
theorem second_product (X : FVec Ideal S100000x128 .f32) (W : FVec Ideal S128x64 .f32) :
    Cert.KernelIdeal.SecondProduct.prod X W
      = Host.dotGeneral (F := Ideal) dot_S100000x128_S128x64_S100000x64_1_0_0_1_n_n none X W := by
  funext i
  obtain ⟨r, q, rfl⟩ : ∃ (r : Fin 100000) (q : Fin 64), i = ix2 r q := ⟨i 0, i 1, eq_ix2 i⟩
  rw [dims2_plain]
  simp only [Host.dotGeneral]
  exact (dotGeneral_plain_apply 100000 128 64 none _ X W r q).symm

/-! ## The bias and the rectifier -/

/-- The bias as one row, read at (0, q), is the bias at q. -/
theorem bias_row128 (b : FVec Ideal S128 .f32) (q : Fin 128) :
    shapeCast Cert.KernelIdeal.S1x128 b Cert.KernelIdeal.Gen.shapeCasts_S128_S1x128 (ix2 (0 : Fin 1) q) = b (ix1 q) :=
  shapeCast_apply b Cert.KernelIdeal.Gen.shapeCasts_S128_S1x128 (ix2 (0 : Fin 1) q) (ix1 q) (by
    rw [Shape.rowMajor_val_one, Shape.rowMajor_val_two]
    show q.val = 0 * 128 + q.val
    omega)

/-- The reference's bias spread over all rows, read at (r, q), is the bias at q. -/
theorem bias_all128 (b : FVec Ideal S128 .f32) (r : Fin 100000) (q : Fin 128) :
    val_main_v53 (F := Ideal) b (ix2 r q) = b (ix1 q) := by
  rw [val_main_v53_apply, val_main_v52_apply]
  exact congrArg b (funext fun a => Fin.ext (by match a with | ⟨0, _⟩ => rfl))

/-- max(agg + b1, 0) of the kernel is the reference's add followed by its maximum with the zero array. -/
theorem bias_relu (A : FVec Ideal S100000x128 .f32) (b : FVec Ideal S128 .f32) :
    Cert.KernelIdeal.BiasRelu.rect A (shapeCast Cert.KernelIdeal.S1x128 b Cert.KernelIdeal.Gen.shapeCasts_S128_S1x128)
      = maximumf (addf A (val_main_v53 (F := Ideal) b)) (val_main_call1_v0 (F := Ideal)) := by
  funext i
  obtain ⟨r, q, rfl⟩ : ∃ (r : Fin 100000) (q : Fin 128), i = ix2 r q := ⟨i 0, i 1, eq_ix2 i⟩
  rw [maximumf_apply, addf_apply, bias_all128]
  unfold Cert.KernelIdeal.BiasRelu.rect
  show max (A (ix2 r q) + shapeCast Cert.KernelIdeal.S1x128 b Cert.KernelIdeal.Gen.shapeCasts_S128_S1x128 (ix2 (0 : Fin 1) q)) _ = _
  rw [bias_row128]
  rfl

/-! ## The decoder -/

/-- The bias as one row of 64, read at (0, k), is the bias at k. -/
theorem bias_row64 (b : FVec Ideal S64 .f32) (k : Fin 64) :
    shapeCast Cert.KernelIdeal.S1x64 b Cert.KernelIdeal.Gen.shapeCasts_S64_S1x64 (ix2 (0 : Fin 1) k) = b (ix1 k) :=
  shapeCast_apply b Cert.KernelIdeal.Gen.shapeCasts_S64_S1x64 (ix2 (0 : Fin 1) k) (ix1 k) (by
    rw [Shape.rowMajor_val_one, Shape.rowMajor_val_two]
    show k.val = 0 * 64 + k.val
    omega)

/-- The reference's bias spread over all rows, read at (r, k), is the bias at k. -/
theorem bias_all64 (b : FVec Ideal S64 .f32) (r : Fin 100000) (k : Fin 64) :
    val_main_v97 (F := Ideal) b (ix2 r k) = b (ix1 k) := by
  rw [val_main_v97_apply, val_main_v96_apply]
  exact congrArg b (funext fun a => Fin.ext (by match a with | ⟨0, _⟩ => rfl))

/-- The printed dimension numbers of the two row gathers are the whole-row ones (the same record in either program). -/
theorem gather_rows_ref : gather_S100000x64_S200000x1_S200000x64_1_0_n_n_0_1_164
    = rowsDims 100000 200000 64 gather_S100000x64_S200000x1_S200000x64_1_0_n_n_0_1_164.wf := rfl
theorem gather_rows_ker : Cert.KernelIdeal.gather_S100000x64_S200000x1_S200000x64_1_0_n_n_0_1_164
    = rowsDims 100000 200000 64 gather_S100000x64_S200000x1_S200000x64_1_0_n_n_0_1_164.wf := rfl

/-- A row gather of the aggregate with the bias added to every row is the row gather of the aggregate with the bias
    added afterwards: at (r, k) both read the aggregate's row `rowOf I r` at column k and add the bias at k. -/
theorem gather_add_bias (A : FVec Ideal S100000x64 .f32) (I : IVec S200000x1 32) (b : FVec Ideal S64 .f32)
    (r : Fin 200000) (k : Fin 64) :
    Host.gather gather_S100000x64_S200000x1_S200000x64_1_0_n_n_0_1_164 (addf A (val_main_v97 (F := Ideal) b)) I (ix2 r k)
      = Host.gather Cert.KernelIdeal.gather_S100000x64_S200000x1_S200000x64_1_0_n_n_0_1_164 A I (ix2 r k) + b (ix1 k) := by
  have hN : 0 < 100000 := by decide
  have e1 : Host.gather gather_S100000x64_S200000x1_S200000x64_1_0_n_n_0_1_164 (addf A (val_main_v97 (F := Ideal) b)) I (ix2 r k)
      = (addf A (val_main_v97 (F := Ideal) b)) (ix2 (rowOf hN I r) k) :=
    gather_rows_apply hN gather_S100000x64_S200000x1_S200000x64_1_0_n_n_0_1_164.wf (addf A (val_main_v97 (F := Ideal) b)) I r k
  have e2 : Host.gather Cert.KernelIdeal.gather_S100000x64_S200000x1_S200000x64_1_0_n_n_0_1_164 A I (ix2 r k)
      = A (ix2 (rowOf hN I r) k) :=
    gather_rows_apply hN gather_S100000x64_S200000x1_S200000x64_1_0_n_n_0_1_164.wf A I r k
  rw [e1, e2, addf_apply, bias_all64]

/-- THE DECODER: the kernel's rows' dot products of the gathered rows with the bias added to each, viewed as a vector of
    200000, is the reference's sum over the columns of the product of the two gathers of the biased aggregate. -/
theorem decode (A : FVec Ideal S100000x64 .f32) (I0 I1 : IVec S200000x1 32) (b : FVec Ideal S64 .f32) :
    shapeCast Cert.KernelIdeal.S200000
        (Cert.KernelIdeal.Decode.dots
          (Host.gather Cert.KernelIdeal.gather_S100000x64_S200000x1_S200000x64_1_0_n_n_0_1_164 A I0)
          (Host.gather Cert.KernelIdeal.gather_S100000x64_S200000x1_S200000x64_1_0_n_n_0_1_164 A I1)
          (shapeCast Cert.KernelIdeal.S1x64 b Cert.KernelIdeal.Gen.shapeCasts_S64_S1x64))
        Cert.KernelIdeal.Gen.shapeCasts_S200000x1_S200000
      = Host.reduceAdd (F := Ideal)
          (mulf (Host.gather gather_S100000x64_S200000x1_S200000x64_1_0_n_n_0_1_164 (addf A (val_main_v97 (F := Ideal) b)) I0)
                (Host.gather gather_S100000x64_S200000x1_S200000x64_1_0_n_n_0_1_164 (addf A (val_main_v97 (F := Ideal) b)) I1))
          (val_main_cst_26 (F := Ideal)) reducesTo_S200000x64_S200000_d1 h_S_ := by
  funext i
  obtain ⟨r, rfl⟩ : ∃ r : Fin 200000, i = ix1 r := ⟨i 0, eq_ix1 i⟩
  -- the reference's side: the zero word plus the sum over the columns
  simp only [Host.reduceAdd, Ideal.hostReduceAdd_def]
  rw [Ideal.hostReduceAdd_single reducesTo_S200000x64_S200000_d1 (by decide)]
  -- the kernel's side: the one-column array read at (r, 0)
  refine (shapeCast_apply _ Cert.KernelIdeal.Gen.shapeCasts_S200000x1_S200000 (ix1 r) (ix2 r (0 : Fin 1)) (by
    rw [Shape.rowMajor_val_one, Shape.rowMajor_val_two]
    show r.val * 1 + 0 = r.val
    omega)).trans ?_
  unfold Cert.KernelIdeal.Decode.dots
  have hz : val_main_cst_26 (F := Ideal) (Shape.Idx.first h_S_) = 0 := by
    show Ideal.ofBits .f32 0x00000000#32 = 0
    exact Ideal.ofBits_zero_f32
  rw [hz, zero_add]
  show ∑ k : Fin 64, _ = ∑ k : Fin 64, _
  refine Finset.sum_congr rfl fun k _ => ?_
  have hl : (by decide : S200000x64.Reduces [1] S200000).lift (ix1 r) k = ix2 r k :=
    funext fun a => Fin.ext (by match a with | ⟨0, _⟩ => rfl | ⟨1, _⟩ => rfl)
  rw [hl, mulf_apply, gather_add_bias, gather_add_bias, bias_row64]

end Cert.StageLaws

end
-- ==== Proof.Fold.lean ====
/-
  The idealized kernel's result, read back through the ten segments of @main as ONE function of the launch arguments —
  the reference's own last stage.

  Each boundary's contents are computed from the previous boundary's: a stretch of host operations applies its operations,
  a region puts its result array at the whole-array function of its module (the products, the rectified bias, the rows' dot
  products) and keeps every other buffer. The host operations between the regions are the reference's operations on the
  same operands, so each carried buffer is stated directly as the reference's stage of the launch arguments: the edge
  lists with the self loops appended, the normalisation column, the embedded features, then layer by layer the products,
  the aggregates and the rectified features. (The reference computes the self-looped edge lists and the normalisation
  twice, once per layer; the kernel once: the same operations of the same argument.) The last step is the decoder's law.
-/
import proofs.«154261_j33380485824613_1_alg».proof.Proof.FoldEntry
import proofs.«154261_j33380485824613_1_alg».proof.Proof.StageLaws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Idealize.ShloMosaic.StableHlo

variable (m : (ℓ : Loc nD τ sig) → Buf (Elt Ideal) ℓ) (ρ : Dev nD → PrngReg) (c : Dev nD)

/-! ## Across the first region -/

/-- The first product is the reference's `dot_general` of the embedded features and W1. -/
theorem h1_at4 : W4 m ρ c (Proc.devRef .tc main_v39) = Cert.ReferenceIdeal.ReadP.val_main_v12 (F := Ideal) (m ((c : Thread nD τ).loc main_arg0)) (m ((c : Thread nD τ).loc main_arg3)) (m ((c : Thread nD τ).loc main_arg4)) := by
  rw [show W4 m ρ c (Proc.devRef .tc main_v39) = (dat0 (V3 m ρ) c).arrAt 2 cfg0.N from W4_arr m ρ c 2,
    Cert.KernelIdeal.FirstProduct.array_eq (V3 m ρ) c]
  show Cert.KernelIdeal.FirstProduct.prod (W3 m ρ c (Proc.devRef .tc main_v38)) (W3 m ρ c (Proc.devRef .tc main_arg4)) = _
  rw [emb_at3, arg_at3 m ρ c main_arg4 (by simp), Cert.StageLaws.first_product]
  rfl

theorem src_at4 : W4 m ρ c (Proc.devRef .tc main_v5) = Cert.ReferenceIdeal.ReadP.val_main_v14 (F := Ideal) (m ((c : Thread nD τ).loc main_arg1)) :=
  (W4_of_ne m ρ c main_v5 (by decide)).trans (src_at3 m ρ c)
theorem dst_at4 : W4 m ρ c (Proc.devRef .tc main_v6) = Cert.ReferenceIdeal.ReadP.val_main_v15 (F := Ideal) (m ((c : Thread nD τ).loc main_arg1)) :=
  (W4_of_ne m ρ c main_v6 (by decide)).trans (dst_at3 m ρ c)
theorem norm_at4 : W4 m ρ c (Proc.devRef .tc main_v30) = Cert.ReferenceIdeal.ReadP.val_main_v46 (F := Ideal) (m ((c : Thread nD τ).loc main_arg1)) :=
  (W4_of_ne m ρ c main_v30 (by decide)).trans (norm_at3 m ρ c)
theorem arg_at4 (b : Ref sig .tc) (hb : b = main_arg2 ∨ b = main_arg5 ∨ b = main_arg6 ∨ b = main_arg7) :
    W4 m ρ c (Proc.devRef .tc b) = m ((c : Thread nD τ).loc b) := by
  rcases hb with rfl | rfl | rfl | rfl
  · exact (W4_of_ne m ρ c main_arg2 (by decide)).trans (arg_at3 m ρ c main_arg2 (by simp))
  · exact (W4_of_ne m ρ c main_arg5 (by decide)).trans (arg_at3 m ρ c main_arg5 (by simp))
  · exact (W4_of_ne m ρ c main_arg6 (by decide)).trans (arg_at3 m ρ c main_arg6 (by simp))
  · exact (W4_of_ne m ρ c main_arg7 (by decide)).trans (arg_at3 m ρ c main_arg7 (by simp))

/-! ## At the second region's entry -/

set_option maxHeartbeats 8000000 in
/-- The first layer's aggregate: the messages h1[src] · norm summed at their destinations. -/
theorem agg1_at5 : W5 m ρ c (Proc.devRef .tc main_v51) = Cert.ReferenceIdeal.ReadP.val_main_v51 (F := Ideal) (m ((c : Thread nD τ).loc main_arg0)) (m ((c : Thread nD τ).loc main_arg1)) (m ((c : Thread nD τ).loc main_arg3)) (m ((c : Thread nD τ).loc main_arg4)) := by
  dsimp only [W5, hostOps1]
  after_results_simp
  rw [h1_at4, src_at4, dst_at4, norm_at4]
  rfl

/-- The first bias as one row. -/
theorem bias1_at5 : W5 m ρ c (Proc.devRef .tc main_v52) = shapeCast S1x128 (m ((c : Thread nD τ).loc main_arg5)) shapeCasts_S128_S1x128 := by
  dsimp only [W5, hostOps1]
  after_results
  rw [arg_at4 m ρ c main_arg5 (by simp)]
  rfl

theorem src_at5 : W5 m ρ c (Proc.devRef .tc main_v5) = Cert.ReferenceIdeal.ReadP.val_main_v14 (F := Ideal) (m ((c : Thread nD τ).loc main_arg1)) := by
  dsimp only [W5, hostOps1]
  after_results
  exact src_at4 m ρ c
theorem dst_at5 : W5 m ρ c (Proc.devRef .tc main_v6) = Cert.ReferenceIdeal.ReadP.val_main_v15 (F := Ideal) (m ((c : Thread nD τ).loc main_arg1)) := by
  dsimp only [W5, hostOps1]
  after_results
  exact dst_at4 m ρ c
theorem norm_at5 : W5 m ρ c (Proc.devRef .tc main_v30) = Cert.ReferenceIdeal.ReadP.val_main_v46 (F := Ideal) (m ((c : Thread nD τ).loc main_arg1)) := by
  dsimp only [W5, hostOps1]
  after_results
  exact norm_at4 m ρ c
theorem arg_at5 (b : Ref sig .tc) (hb : b = main_arg2 ∨ b = main_arg6 ∨ b = main_arg7) :
    W5 m ρ c (Proc.devRef .tc b) = m ((c : Thread nD τ).loc b) := by
  rcases hb with rfl | rfl | rfl
  · dsimp only [W5, hostOps1]; after_results; exact arg_at4 m ρ c main_arg2 (by simp)
  · dsimp only [W5, hostOps1]; after_results; exact arg_at4 m ρ c main_arg6 (by simp)
  · dsimp only [W5, hostOps1]; after_results; exact arg_at4 m ρ c main_arg7 (by simp)

/-! ## Across the second and third regions -/

/-- The rectified hidden features are the reference's relu(agg1 + b1). -/
theorem x2_at6 : W6 m ρ c (Proc.devRef .tc main_v53) = Cert.ReferenceIdeal.ReadP.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [show W6 m ρ c (Proc.devRef .tc main_v53) = (dat1 (V5 m ρ) c).arrAt 2 cfg1.N from W6_arr m ρ c 2,
    Cert.KernelIdeal.BiasRelu.array_eq (V5 m ρ) c]
  show Cert.KernelIdeal.BiasRelu.rect (W5 m ρ c (Proc.devRef .tc main_v51)) (W5 m ρ c (Proc.devRef .tc main_v52)) = _
  rw [agg1_at5, bias1_at5, Cert.StageLaws.bias_relu]
  rfl

/-- The second product is the reference's `dot_general` of the hidden features and W2. -/
theorem h2_at7 : W7 m ρ c (Proc.devRef .tc main_v54) = Cert.ReferenceIdeal.ReadP.val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [show W7 m ρ c (Proc.devRef .tc main_v54) = (dat2 (V6 m ρ) c).arrAt 2 cfg2.N from W7_arr m ρ c 2,
    Cert.KernelIdeal.SecondProduct.array_eq (V6 m ρ) c]
  show Cert.KernelIdeal.SecondProduct.prod (W6 m ρ c (Proc.devRef .tc main_v53)) (W6 m ρ c (Proc.devRef .tc main_arg6)) = _
  rw [x2_at6, (W6_of_ne m ρ c main_arg6 (by decide)).trans (arg_at5 m ρ c main_arg6 (by simp)), Cert.StageLaws.second_product]
  rfl

theorem src_at7 : W7 m ρ c (Proc.devRef .tc main_v5) = Cert.ReferenceIdeal.ReadP.val_main_v14 (F := Ideal) (m ((c : Thread nD τ).loc main_arg1)) :=
  (W7_of_ne m ρ c main_v5 (by decide)).trans ((W6_of_ne m ρ c main_v5 (by decide)).trans (src_at5 m ρ c))
theorem dst_at7 : W7 m ρ c (Proc.devRef .tc main_v6) = Cert.ReferenceIdeal.ReadP.val_main_v15 (F := Ideal) (m ((c : Thread nD τ).loc main_arg1)) :=
  (W7_of_ne m ρ c main_v6 (by decide)).trans ((W6_of_ne m ρ c main_v6 (by decide)).trans (dst_at5 m ρ c))
theorem norm_at7 : W7 m ρ c (Proc.devRef .tc main_v30) = Cert.ReferenceIdeal.ReadP.val_main_v46 (F := Ideal) (m ((c : Thread nD τ).loc main_arg1)) :=
  (W7_of_ne m ρ c main_v30 (by decide)).trans ((W6_of_ne m ρ c main_v30 (by decide)).trans (norm_at5 m ρ c))
theorem arg2_at7 : W7 m ρ c (Proc.devRef .tc main_arg2) = (m ((c : Thread nD τ).loc main_arg2)) :=
  (W7_of_ne m ρ c main_arg2 (by decide)).trans ((W6_of_ne m ρ c main_arg2 (by decide)).trans (arg_at5 m ρ c main_arg2 (by simp)))
theorem arg7_at7 : W7 m ρ c (Proc.devRef .tc main_arg7) = (m ((c : Thread nD τ).loc main_arg7)) :=
  (W7_of_ne m ρ c main_arg7 (by decide)).trans ((W6_of_ne m ρ c main_arg7 (by decide)).trans (arg_at5 m ρ c main_arg7 (by simp)))

/-! ## At the fourth region's entry -/

set_option maxHeartbeats 8000000 in
/-- The second layer's aggregate gathered at the first row of the label pairs. -/
theorem z0_at8 : W8 m ρ c (Proc.devRef .tc main_v77) = Host.gather gather_S100000x64_S200000x1_S200000x64_1_0_n_n_0_1_164
    (Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (Cert.ReferenceIdeal.ReadP.val_main_v106 (F := Ideal) (m ((c : Thread nD τ).loc main_arg2))) := by
  dsimp only [W8, hostOps3]
  after_results_simp
  rw [h2_at7, src_at7, dst_at7, norm_at7, arg2_at7]
  rfl

set_option maxHeartbeats 8000000 in
/-- The second layer's aggregate gathered at the second row of the label pairs. -/
theorem z1_at8 : W8 m ρ c (Proc.devRef .tc main_v84) = Host.gather gather_S100000x64_S200000x1_S200000x64_1_0_n_n_0_1_164
    (Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (Cert.ReferenceIdeal.ReadP.val_main_v115 (F := Ideal) (m ((c : Thread nD τ).loc main_arg2))) := by
  dsimp only [W8, hostOps3]
  after_results_simp
  rw [h2_at7, src_at7, dst_at7, norm_at7, arg2_at7]
  rfl

/-- The second bias as one row. -/
theorem bias2_at8 : W8 m ρ c (Proc.devRef .tc main_v85) = shapeCast S1x64 (m ((c : Thread nD τ).loc main_arg7)) shapeCasts_S64_S1x64 := by
  dsimp only [W8, hostOps3]
  after_results
  rw [arg7_at7]
  rfl

/-! ## The result -/

/-- THE KERNEL'S RESULT is the reference's last stage of the launch arguments. -/
theorem result_eq : W10 m ρ c (Proc.devRef .tc main_v87)
    = Cert.ReferenceIdeal.ReadP.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [W10, hostOps4]
  after_results
  rw [show W9 m ρ c (Proc.devRef .tc main_v86) = (dat3 (V8 m ρ) c).arrAt 3 cfg3.N from W9_arr m ρ c 3,
    Cert.KernelIdeal.Decode.array_eq (V8 m ρ) c]
  show shapeCast _ (Cert.KernelIdeal.Decode.dots (W8 m ρ c (Proc.devRef .tc main_v77)) (W8 m ρ c (Proc.devRef .tc main_v84)) (W8 m ρ c (Proc.devRef .tc main_v85))) _ = _
  rw [z0_at8, z1_at8, bias2_at8]
  exact (Cert.StageLaws.decode _ _ _ _).trans rfl

end Cert.KernelIdeal.Fold

end
-- ==== Proof.lean ====
/-
  A two-layer graph convolution with a dot-product link decoder: the Pallas kernel's entry point against its jnp reference,
  equal over the extended reals.

  Both programs compute, from the node indices, the edge list, the label pairs, the embedding table, W1, b1, W2, b2:
    x    = emb[x_idx];  src2, dst2 = the edges with one self loop per node appended;
    deg  = the number of edges into each node;  dinv = deg^(-1/2) where deg > 0, else 0;  norm = dinv[src2] · dinv[dst2];
    agg1 = Σ over edges into a node of (x @ W1)[src2] · norm;      x2 = max(agg1 + b1, 0);
    agg2 = Σ over edges into a node of (x2 @ W2)[src2] · norm;
    out[i] = Σ k, (agg2[idx0[i], k] + b2[k]) · (agg2[idx1[i], k] + b2[k]).
  The kernel runs the two products, the bias-and-rectify step and the decoder as four pipelined regions over blocks of
  rows and leaves the gathers and scatters to the host; it computes norm once where the reference computes it per layer, and
  it adds b2 AFTER gathering the rows of agg2 where the reference adds it before. None of this changes a value over the
  extended reals: a blocked product is the whole product, a lane sum is the host's sum, and a row gather commutes with
  a per-column bias. No law used needs finiteness, so the precondition is never opened.

  The kernel's side: Proof/KernelRun.lean (the run with the result named), Proof/FirstProduct.lean, BiasRelu.lean,
  SecondProduct.lean, Decode.lean (each region's result array as one function of its operands), Proof/Fold.lean (the
  result read back through @main's segments). The laws joining the two sides: Proof/StageLaws.lean. The reference's run
  and its stages read at an index are generated modules.
-/
import proofs.«154261_j33380485824613_1_alg».proof.Defs
import proofs.«154261_j33380485824613_1_alg».proof.Proof.Gen.Kernel
import proofs.«154261_j33380485824613_1_alg».proof.Proof.Gen.Kernel.Skeleton
import proofs.«154261_j33380485824613_1_alg».proof.Proof.Gen.Kernel.Launch
import proofs.«154261_j33380485824613_1_alg».proof.Proof.Gen.Kernel.Points
import proofs.«154261_j33380485824613_1_alg».proof.Proof.Gen.Kernel.Frame
import proofs.«154261_j33380485824613_1_alg».proof.Proof.Gen.KernelIdeal
import proofs.«154261_j33380485824613_1_alg».proof.Proof.Gen.KernelIdeal.Skeleton
import proofs.«154261_j33380485824613_1_alg».proof.Proof.Gen.KernelIdeal.Launch
import proofs.«154261_j33380485824613_1_alg».proof.Proof.Gen.KernelIdeal.Points
import proofs.«154261_j33380485824613_1_alg».proof.Proof.Gen.KernelIdeal.Frame
import proofs.«154261_j33380485824613_1_alg».proof.Proof.Gen.ReferenceIdeal
import proofs.«154261_j33380485824613_1_alg».proof.Proof.Gen.Pre_finite_inputs
import proofs.«154261_j33380485824613_1_alg».proof.Proof.RefRunP
import proofs.«154261_j33380485824613_1_alg».proof.Proof.RefReadP
import proofs.«154261_j33380485824613_1_alg».proof.Proof.KernelRun
import proofs.«154261_j33380485824613_1_alg».proof.Proof.Fold
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The idealized reference runs and leaves its arguments as launched: its run, the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both idealized programs end with the reference's last stage of the (agreeing) arguments in their result buffers. -/
theorem algebraic : Cert.algebraic_KernelIdeal_ReferenceIdeal := by
  intro m ρ m' ρ' _ hagree
  refine ⟨fun c => Cert.ReferenceIdeal.ReadP.val_main_v118 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result_eq m ρ c), (h c).2⟩)
      (Cert.KernelIdeal.Out.run_out (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v118_eq, (hagree c).1, (hagree c).2.1, (hagree c).2.2.1,
      (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
